-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S256x4096 : Shape := ⟨2, ![256, 4096]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | .local _ .vmem, ⟨6, _⟩ => ⟨S4096x4096, .bf16⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  What the layer computes, written once over the extended reals.

  An entry is binarized by its sign: it becomes -1 when it lies strictly below zero and +1 otherwise (so zero,
  and +infinity, go to +1). The layer binarizes the input matrix x (8192 rows of 4096 entries) and the weight
  matrix k (4096 by 4096), multiplies them, adds the bias vector along every row, and applies the hyperbolic
  tangent:

      out (p, q) = tanh ( sum over j of bin (x (p, j)) * bin (k (j, q))  +  bias q ).

  The three constants are kept as the words the programs print (0, -1.0 and 1.0 in binary32); both programs
  print the same words, so they are never evaluated.
-/
import Idealize.ShloMosaic.Lib.ValueIdx
import Idealize.ShloMosaic.PureOps.Ideal

noncomputable section

namespace Cert.SignDense

open Idealize.ShloMosaic Idealize.ShloMosaic.ValueIdx
open scoped BigOperators

/-- The sign binarization of one extended real: the comparison "strictly below zero" chooses -1, otherwise +1. -/
def bin (x : EReal) : EReal :=
  Scalar.select (FloatOps.cmpf (F := Ideal) (φ := .f32) .olt x (FloatOps.ofBits (F := Ideal) .f32 0x00000000#32))
    (FloatOps.ofBits (F := Ideal) .f32 0xBF800000#32) (FloatOps.ofBits (F := Ideal) .f32 0x3F800000#32)

/-- The binarized weight matrix, entry by entry. -/
def weights (k : (⟨2, ![4096, 4096]⟩ : Shape).Idx → EReal) : (⟨2, ![4096, 4096]⟩ : Shape).Idx → EReal :=
  fun i => bin (k i)

/-- Entry (p, q) of a block of rows of the layer: row p of a binarized input against an ALREADY binarized weight
    matrix w, plus entry q of a bias row r (a 1 by 4096 matrix), through tanh. -/
def rowsAt {a : Nat} (x : (⟨2, ![a, 4096]⟩ : Shape).Idx → EReal) (w : (⟨2, ![4096, 4096]⟩ : Shape).Idx → EReal)
    (r : (⟨2, ![1, 4096]⟩ : Shape).Idx → EReal) (p : Fin a) (q : Fin 4096) : EReal :=
  Ideal.tanh ((∑ j : Fin 4096, bin (x (ix2 p j)) * w (ix2 j q)) + r (ix2 (0 : Fin 1) q))

/-- The block of rows as an array. The number of rows is a parameter: the layer is computed 256 rows at a time
    and the whole result has 8192. -/
def rows {a : Nat} (x : (⟨2, ![a, 4096]⟩ : Shape).Idx → EReal) (w : (⟨2, ![4096, 4096]⟩ : Shape).Idx → EReal)
    (r : (⟨2, ![1, 4096]⟩ : Shape).Idx → EReal) : (⟨2, ![a, 4096]⟩ : Shape).Idx → EReal :=
  fun i => rowsAt x w r (i 0) (i 1)

/-- Entry (p, q) of the whole layer, from the three argument arrays. -/
def layerAt (x : (⟨2, ![8192, 4096]⟩ : Shape).Idx → EReal) (k : (⟨2, ![4096, 4096]⟩ : Shape).Idx → EReal)
    (b : (⟨1, ![4096]⟩ : Shape).Idx → EReal) (p : Fin 8192) (q : Fin 4096) : EReal :=
  Ideal.tanh ((∑ j : Fin 4096, bin (x (ix2 p j)) * bin (k (ix2 j q))) + b (ix1 q))

/-- The whole layer as one function of the three argument arrays. -/
def layer (x : (⟨2, ![8192, 4096]⟩ : Shape).Idx → EReal) (k : (⟨2, ![4096, 4096]⟩ : Shape).Idx → EReal)
    (b : (⟨1, ![4096]⟩ : Shape).Idx → EReal) : (⟨2, ![8192, 4096]⟩ : Shape).Idx → EReal :=
  fun i => layerAt x k b (i 0) (i 1)

/-- Entry by entry, the layer is its row form over the binarized weights and the bias laid out as a single row. -/
theorem rowsAt_eq_layerAt (x : (⟨2, ![8192, 4096]⟩ : Shape).Idx → EReal) (k : (⟨2, ![4096, 4096]⟩ : Shape).Idx → EReal)
    (b : (⟨1, ![4096]⟩ : Shape).Idx → EReal) (r : (⟨2, ![1, 4096]⟩ : Shape).Idx → EReal)
    (hr : ∀ q : Fin 4096, r (ix2 (0 : Fin 1) q) = b (ix1 q)) (p : Fin 8192) (q : Fin 4096) :
    rowsAt x (weights k) r p q = layerAt x k b p q := by
  unfold rowsAt layerAt weights
  rw [hr]

/-- The same, as arrays. -/
theorem rows_eq_layer (x : (⟨2, ![8192, 4096]⟩ : Shape).Idx → EReal) (k : (⟨2, ![4096, 4096]⟩ : Shape).Idx → EReal)
    (b : (⟨1, ![4096]⟩ : Shape).Idx → EReal) (r : (⟨2, ![1, 4096]⟩ : Shape).Idx → EReal)
    (hr : ∀ q : Fin 4096, r (ix2 (0 : Fin 1) q) = b (ix1 q)) :
    rows x (weights k) r = layer x k b :=
  funext fun i => rowsAt_eq_layerAt x k b r hr (i 0) (i 1)

end Cert.SignDense

end
-- ==== Proof.RefValue.lean ====
/-
  The reference program computes the layer of the specification.

  Read one operation at a time, entry (p, q) of the reference's result is tanh of the host dot product of the two
  binarized matrices at (p, q) plus the bias broadcast along the rows. The dot product at (p, q) is the sum over
  the contracted position j of the left operand at (p, j) times the right operand at (j, q); each operand there is
  "select (entry < 0) (-1) (+1)", which is the binarization of the specification; and the bias, first laid out as a
  1 by 4096 matrix and then repeated down the 8192 rows, is read at q.
-/
import proofs.«100262_j65566970741075_2_alg».proof.Proof.Gen.ReferenceIdeal.Read
import proofs.«100262_j65566970741075_2_alg».proof.Proof.Spec

noncomputable section

namespace Cert.ReferenceIdeal.RefValue

open Cert.ReferenceIdeal Cert.ReferenceIdeal.Read Idealize.ShloMosaic Idealize.ShloMosaic.ValueIdx
open scoped BigOperators

/-- The binarized input, entry by entry. -/
theorem binarized_input (x0 : S8192x4096.Idx → EReal) (j : S8192x4096.Idx) :
    val_main_v3 (F := Ideal) x0 j = SignDense.bin (x0 j) := by
  rw [val_main_v3_apply, val_main_v2_apply, val_main_v1_apply, val_main_v0_apply, val_main_cst_apply,
    val_main_call0_v0_apply, val_main_cst_0_apply, val_main_call0_v1_apply, val_main_cst_1_apply]
  rfl

/-- The binarized weights, entry by entry. -/
theorem binarized_weights (x1 : S4096x4096.Idx → EReal) (j : S4096x4096.Idx) :
    val_main_v7 (F := Ideal) x1 j = SignDense.bin (x1 j) := by
  rw [val_main_v7_apply, val_main_v6_apply, val_main_v5_apply, val_main_v4_apply, val_main_cst_2_apply,
    val_main_call1_v0_apply, val_main_cst_3_apply, val_main_call1_v1_apply, val_main_cst_4_apply]
  rfl

/-- The left operand of the dot product at (p, q), contracted position j, is read at (p, j). -/
theorem lidx_eq (p : Fin 8192) (q : Fin 4096) (j : Fin 4096) : lidx_main_v8 (ix2 p q) j = ix2 p j :=
  funext fun a => Fin.ext (by match a with | ⟨0, _⟩ => rfl | ⟨1, _⟩ => rfl)

/-- The right operand is read at (j, q). -/
theorem ridx_eq (p : Fin 8192) (q : Fin 4096) (j : Fin 4096) : ridx_main_v8 (ix2 p q) j = ix2 j q :=
  funext fun a => Fin.ext (by match a with | ⟨0, _⟩ => rfl | ⟨1, _⟩ => rfl)

/-- The bias, after its two broadcasts, is read at the column. -/
theorem bias_idx_eq (p : Fin 8192) (q : Fin 4096) : idx_main_v9 (idx_main_v10 (ix2 p q)) = ix1 q :=
  funext fun a => Fin.ext (by match a with | ⟨0, _⟩ => rfl)

/-- Entry (p, q) of the reference's result. -/
theorem result_at (x0 : S8192x4096.Idx → EReal) (x1 : S4096x4096.Idx → EReal) (x2 : S4096.Idx → EReal)
    (p : Fin 8192) (q : Fin 4096) :
    val_main_v12 (F := Ideal) x0 x1 x2 (ix2 p q) = SignDense.layerAt x0 x1 x2 p q := by
  rw [val_main_v12_apply, val_main_v11_apply, val_main_v8_apply, val_main_v10_apply, val_main_v9_apply, bias_idx_eq]
  unfold SignDense.layerAt
  simp only [lidx_eq, ridx_eq, binarized_input, binarized_weights, Ideal.hostUnary_tanh_def, Ideal.addf_def]

/-- The reference's result is the layer of the specification. -/
theorem result_eq (x0 : S8192x4096.Idx → EReal) (x1 : S4096x4096.Idx → EReal) (x2 : S4096.Idx → EReal) :
    val_main_v12 (F := Ideal) x0 x1 x2 = SignDense.layer x0 x1 x2 := by
  funext i
  obtain ⟨p, q, rfl⟩ : ∃ (p : Fin 8192) (q : Fin 4096), i = ix2 p q := ⟨i 0, i 1, eq_ix2 i⟩
  exact result_at x0 x1 x2 p q

end Cert.ReferenceIdeal.RefValue

end
-- ==== Proof.KernelRun.lean ====
/-
  The kernel program's run, with its result array named.

  The program is two kernel calls with one host operation between them. Every weakly fair execution from a memory
  with zero counters terminates without a fault; at the end the three argument arrays are as launched, and the
  result array holds what the second call's 32 write-backs leave in it when the call is entered at the contents the
  first call and the host operation produced. The run is assembled from the same segments as the frame statement
  (a region per call, a host segment between them); only the final read-off differs: besides the arguments it
  reads the result buffer, which is the second call's output window.
-/
import proofs.«100262_j65566970741075_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the second
    call's accumulated write-backs and the arguments as launched. -/
theorem run : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Named

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Layer.lean ====
/-
  The second kernel call: 256 rows of the layer at a time.

  The call walks the 8192 rows of the input in 32 blocks of 256 whole rows; the binarized weight matrix and the
  bias row are read whole at every block. At block t the body binarizes the 256 loaded rows, multiplies them by
  the weights on the matrix unit into a zero accumulator (entry (p, q) of such a product is the sum over j of
  left (p, j) times right (j, q), on the extended reals), adds the bias row to every row, applies tanh, and
  writes the 256 rows back at rows 256 t … 256 t + 255 of the result. The 32 blocks tile the result, which
  therefore ends holding the row form of the specification over whatever the call found in its three operand
  arrays.
-/
import proofs.«100262_j65566970741075_2_alg».proof.Proof.Gen.KernelIdeal.Frame
import proofs.«100262_j65566970741075_2_alg».proof.Proof.Spec
import proofs.«100262_j65566970741075_2_alg».proof.Proof.LibMatmul
import Idealize.ShloMosaic.Lib.Pipeline.Value

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem origin : (![0, 0] : Fin 2 → Nat) = fun _ => 0 := funext fun a => by fin_cases a <;> rfl

/-! ## The body's arithmetic at one entry -/

/-- The matrix unit's product into the zero accumulator at (p, q): row p of the left operand against column q of
    the right. -/
theorem product_at (l : FVec Ideal S256x4096 .bf16) (r : FVec Ideal S4096x4096 .bf16) (p : Fin 256) (q : Fin 4096) :
    matmul dot_S256x4096_S4096x4096_S256x4096_1_0_0_1_n_n none l r (constant (F := Ideal) S256x4096 .f32 0x00000000#32) (ix2 p q)
      = ∑ j : Fin 4096, l (ix2 p j) * r (ix2 j q) :=
  matmul_zero_ix2 dot_S256x4096_S4096x4096_S256x4096_1_0_0_1_n_n rfl rfl rfl rfl rfl rfl none l r p q

/-- The bias row repeated down the 256 rows, at (p, q), is the row's entry q. -/
theorem bias_at (r : Vec Ideal S1x4096 .f32) (p : Fin 256) (q : Fin 4096) :
    broadcastTo S256x4096 r broadcasts_S1x4096_S256x4096 (ix2 p q) = r (ix2 (0 : Fin 1) q) :=
  broadcastTo_apply r broadcasts_S1x4096_S256x4096 (ix2 p q) (ix2 (0 : Fin 1) q) (fun a => by
    match a with
    | ⟨0, _⟩ => show (0 : Nat) = if (1 : Nat) = 1 then 0 else _; rw [if_pos rfl]
    | ⟨1, _⟩ => show q.val = if (4096 : Nat) = 1 then 0 else q.val; rw [if_neg (by decide)])

/-- The stored block at (p, q) is the specification's row form of the three loaded blocks. -/
theorem stored_at (x0 : Vec Ideal S256x4096 .f32) (x7 : Vec Ideal S4096x4096 .bf16) (x10 : Vec Ideal S1x4096 .f32)
    (p : Fin 256) (q : Fin 4096) :
    k1_pay1 x0 x7 x10 (ix2 p q) = SignDense.rowsAt x0 x7 x10 p q := by
  unfold k1_pay1 SignDense.rowsAt
  rw [shapeCast_self, shapeCast_self]
  show Ideal.tanh (matmul dot_S256x4096_S4096x4096_S256x4096_1_0_0_1_n_n none _ x7 (constant (F := Ideal) S256x4096 .f32 0x00000000#32) (ix2 p q)
      + broadcastTo S256x4096 x10 broadcasts_S1x4096_S256x4096 (ix2 p q)) = _
  rw [product_at, bias_at]
  rfl

/-- The stored block is the specification's row form of the three loaded blocks. -/
theorem stored_eq (x0 : Vec Ideal S256x4096 .f32) (x7 : Vec Ideal S4096x4096 .bf16) (x10 : Vec Ideal S1x4096 .f32) :
    k1_pay1 x0 x7 x10 = SignDense.rows x0 x7 x10 := by
  funext j
  obtain ⟨p, q, rfl⟩ : ∃ (p : Fin 256) (q : Fin 4096), j = ix2 p q := ⟨j 0, j 1, eq_ix2 j⟩
  exact stored_at x0 x7 x10 p q

/-! ## From the 32 blocks to the whole result -/

variable (V : (c : Dev nD) → (b : Ref sig .tc) → Buf (Elt Ideal) ((c : Thread nD τ).loc b))

/-- Where the blocks sit: at point t the input rows and the result rows are at block row t; the weights and the
    bias row are at block (0, 0), whole. -/
theorem block_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The result of the call as one function of the three operand arrays it finds. -/
def result (c : Dev nD) : S8192x4096.Idx → EReal :=
  SignDense.rows (V c main_arg0 : S8192x4096.Idx → EReal) (V c main_v0 : S4096x4096.Idx → EReal) (V c main_v1 : S1x4096.Idx → EReal)

/-- Point t is one of 32. -/
theorem point_lt (t : Fin cfg1.N) : t.val < 32 := by have h : t.val < grid1.N := t.isLt; have hN : grid1.N = 32 := N_1; omega

/-- Row p of block t is row 256 t + p of the whole. -/
def rowOf (t : Fin cfg1.N) (p : Fin 256) : Fin 8192 := ⟨t.val * 256 + p.val, by have := point_lt t; omega⟩

/-- Entry (p, q) of the result's block t sits at (256 t + p, q). -/
theorem result_entry (t : Fin cfg1.N) (p : Fin 256) (q : Fin 4096) :
    ((cfg1.win 3).blk t).view.emb (ix2 p q) = ix2 (rowOf t p) q := by
  obtain ⟨e0, e1, e2, e3, e4, e5, e6, e7⟩ := block_rows t
  funext a; apply Fin.ext
  match a with
  | ⟨0, _⟩ => show win1_3.index t (0 : Fin 2) * 256 + 1 * p.val = t.val * 256 + p.val; omega
  | ⟨1, _⟩ => show win1_3.index t (1 : Fin 2) * 4096 + 1 * q.val = q.val; omega

/-- The input block at point t, entry (p, j), is the input array at (256 t + p, j). -/
theorem read_input (c : Dev nD) (t : Fin cfg1.N) (p : Fin 256) (j : Fin 4096) :
    iblk1 V c 0 t (ix2 p j) = (V c main_arg0 : S8192x4096.Idx → EReal) (ix2 (rowOf t p) j) := by
  obtain ⟨e0, e1, e2, e3, e4, e5, e6, e7⟩ := block_rows t
  show (V c main_arg0 : S8192x4096.Idx → EReal) (((cfg1.win 0).blk t).view.emb (ix2 p j)) = _
  refine congrArg _ (funext fun a => Fin.ext ?_)
  match a with
  | ⟨0, _⟩ => show win1_0.index t (0 : Fin 2) * 256 + 1 * p.val = t.val * 256 + p.val; omega
  | ⟨1, _⟩ => show win1_0.index t (1 : Fin 2) * 4096 + 1 * j.val = j.val; omega

/-- The weight block at every point is the whole weight array. -/
theorem read_weights (c : Dev nD) (t : Fin cfg1.N) (j : Fin 4096) (q : Fin 4096) :
    iblk1 V c 1 t (ix2 j q) = (V c main_v0 : S4096x4096.Idx → EReal) (ix2 j q) := by
  obtain ⟨e0, e1, e2, e3, e4, e5, e6, e7⟩ := block_rows t
  show (V c main_v0 : S4096x4096.Idx → EReal) (((cfg1.win 1).blk t).view.emb (ix2 j q)) = _
  refine congrArg _ (funext fun a => Fin.ext ?_)
  match a with
  | ⟨0, _⟩ => show win1_1.index t (0 : Fin 2) * 4096 + 1 * j.val = j.val; omega
  | ⟨1, _⟩ => show win1_1.index t (1 : Fin 2) * 4096 + 1 * q.val = q.val; omega

/-- The bias block at every point is the whole bias row. -/
theorem read_bias (c : Dev nD) (t : Fin cfg1.N) (q : Fin 4096) :
    iblk1 V c 2 t (ix2 (0 : Fin 1) q) = (V c main_v1 : S1x4096.Idx → EReal) (ix2 (0 : Fin 1) q) := by
  obtain ⟨e0, e1, e2, e3, e4, e5, e6, e7⟩ := block_rows t
  show (V c main_v1 : S1x4096.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 4096 + 1 * q.val = q.val; omega

/-- What point t writes back is block t of that function. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero origin]
  simp only [View.ld_unit_zero (S := S256x4096) origin, View.ld_unit_zero (S := S4096x4096) origin,
    View.ld_unit_zero (S := S1x4096) origin]
  rw [stored_eq]
  funext y
  obtain ⟨p, q, rfl⟩ : ∃ (p : Fin 256) (q : Fin 4096), y = ix2 p q := ⟨y 0, y 1, eq_ix2 y⟩
  show SignDense.rowsAt (iblk1 V c 0 t) (iblk1 V c 1 t) (iblk1 V c 2 t) p q
    = result V c (((cfg1.win 3).blk t).view.emb (ix2 p q))
  rw [result_entry]
  show _ = SignDense.rowsAt (V c main_arg0 : S8192x4096.Idx → EReal) (V c main_v0 : S4096x4096.Idx → EReal)
        (V c main_v1 : S1x4096.Idx → EReal) (rowOf t p) q
  unfold SignDense.rowsAt
  simp only [read_input, read_weights, read_bias]

/-- An entry of the result lies in point t's block iff each coordinate is in the block's range on its axis. -/
theorem mem_block (t : Fin cfg1.N) (i : S8192x4096.Idx) :
    i ∈ ((cfg1.win 3).blk t).view.set ↔ ∀ a : Fin 2, win1_3.index t a * S256x4096.size a ≤ (i a).val
      ∧ (i a).val < win1_3.index t a * S256x4096.size a + S256x4096.size a := by
  show i ∈ ((View.whole main_v2).slice (win1_3.rect t)).set ↔ _
  rw [View.set_slice_whole, Rect.mem_set_unit]
  exact Iff.rfl

/-- Every entry lies in the block of the point numbered by its row divided by 256. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : grid1.N = 32 := N_1
  let t : Fin cfg1.N := ⟨(i 0).val / 256, by show _ < grid1.N; omega⟩
  obtain ⟨-, -, -, -, -, -, e6, e7⟩ := block_rows t
  have e6' : win1_3.index t (0 : Fin 2) = (i 0).val / 256 := e6
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 4096 ≤ (i 1).val ∧ (i 1).val < win1_3.index t (1 : Fin 2) * 4096 + 4096; omega

/-- After the call the result array holds the row form of the specification over the three operand arrays the call
    found. -/
theorem final (c : Dev nD) : (dat1 V c).arrAt 3 cfg1.N = result V c :=
  (dat1 V c).arrAt_eq_of_cover 3 _ (fun t _ => flushed_eq V c t) covered

end Cert.KernelIdeal.Layer

end
-- ==== Proof.Weights.lean ====
/-
  The first kernel call: the binarized weight matrix.

  The call walks the 4096 by 4096 weight matrix in 8 blocks of 512 whole rows. At block t it loads rows
  512 t … 512 t + 511, binarizes every entry (the rounding to the narrower float format that follows is the
  identity on the extended reals), and writes the block back at the same rows of the result. The 8 blocks tile
  the matrix, so the result array ends holding the binarization of the weight matrix, entry by entry — for any
  contents V the call finds the buffers at.
-/
import proofs.«100262_j65566970741075_2_alg».proof.Proof.Gen.KernelIdeal.Frame
import proofs.«100262_j65566970741075_2_alg».proof.Proof.Spec
import Idealize.ShloMosaic.Lib.Pipeline.Value

noncomputable section

namespace Cert.KernelIdeal.Weights

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored block is the binarization of the loaded block, entry by entry. -/
theorem stored_eq (x0 : Vec Ideal S512x4096 .f32) : k0_pay1 x0 = fun j => SignDense.bin (x0 j) := rfl

/-- Where the blocks sit: at point t both windows are at block row t, block column 0. -/
theorem block_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the binarized matrix. -/
theorem flushed_eq (c : Dev nD) (t : Fin cfg0.N) :
    (dat0 V c).flushed 1 t
      = ((cfg0.win 1).blk t).view.read (Elt Ideal) (fun i => SignDense.bin (V c main_arg1 i)) := by
  show (cfg0.win 1).cut (grid0.coords t) ((dat0 V c).after 1 t) = _
  rw [after0_1]
  unfold out0_1
  rw [View.canon_unit_zero origin]
  simp only [View.ld_unit_zero (S := S512x4096) origin]
  rw [stored_eq]
  obtain ⟨e0, e1, e2, e3⟩ := block_rows t
  funext j
  show SignDense.bin (V c main_arg1 (((cfg0.win 0).blk t).view.emb j))
    = SignDense.bin (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An entry of the matrix lies in point t's block iff each coordinate is in the block's range on its axis. -/
theorem mem_block (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- Every entry lies in the block of the point numbered by its row divided by 512. -/
theorem covered (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : grid0.N = 8 := N_0
  let t : Fin cfg0.N := ⟨(i 0).val / 512, by show _ < grid0.N; omega⟩
  obtain ⟨-, -, e2, e3⟩ := block_rows t
  have e2' : win0_1.index t (0 : Fin 2) = (i 0).val / 512 := e2
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the call the result array holds the binarized weight matrix. -/
theorem final (c : Dev nD) :
    (dat0 V c).arrAt 1 cfg0.N = fun i => SignDense.bin (V c main_arg1 i) :=
  (dat0 V c).arrAt_eq_of_cover 1 _ (fun t _ => flushed_eq V c t) covered

end Cert.KernelIdeal.Weights

end
-- ==== Proof.Between.lean ====
/-
  Between the two kernel calls.

  The first call leaves the binarized weight matrix in its result array and nothing else changed. The one host
  operation between the calls lays the bias vector out as a 1 by 4096 matrix (a reshape: entry (0, q) of the
  matrix is entry q of the vector) and writes no other buffer. So the second call finds: the input matrix as
  launched, the binarized weights, and the bias as a single row.
-/
import proofs.«100262_j65566970741075_2_alg».proof.Proof.Gen.KernelIdeal.Frame
import proofs.«100262_j65566970741075_2_alg».proof.Proof.Weights
import Idealize.ShloMosaic.Lib.Pipeline.Value
import Idealize.ShloMosaic.Lib.StableHlo.Run

noncomputable section

namespace Cert.KernelIdeal.Between

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The host operation writes only the bias row: every other buffer passes through it. -/
theorem host_keeps (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The second call finds the input matrix as launched. -/
theorem entry_input (c : Dev nD) : V2 m ρ c main_arg0 = m ((c : Thread nD τ).loc main_arg0) :=
  calc W2 m ρ c (Proc.devRef .tc main_arg0)
    _ = W1 m ρ c (Proc.devRef .tc main_arg0) := host_keeps m ρ c main_arg0 (by decide)
    _ = W0 m ρ c (Proc.devRef .tc main_arg0) := W1_of_ne m ρ c main_arg0 (by decide)
    _ = m ((c : Thread nD τ).loc main_arg0) := rfl

/-- It finds the binarized weight matrix where the first call left it. -/
theorem entry_weights (c : Dev nD) :
    (V2 m ρ c main_v0 : S4096x4096.Idx → EReal)
      = SignDense.weights (m ((c : Thread nD τ).loc main_arg1) : S4096x4096.Idx → EReal) :=
  calc W2 m ρ c (Proc.devRef .tc main_v0)
    _ = W1 m ρ c (Proc.devRef .tc main_v0) := host_keeps m ρ c main_v0 (by decide)
    _ = (dat0 (V0 m ρ) c).arrAt 1 cfg0.N := W1_arr m ρ c 1
    _ = _ := Weights.final (V0 m ρ) c

/-- It finds the bias laid out as a single row. -/
theorem entry_bias (c : Dev nD) :
    (V2 m ρ c main_v1 : S1x4096.Idx → EReal)
      = shapeCast S1x4096 (m ((c : Thread nD τ).loc main_arg2) : S4096.Idx → EReal) shapeCasts_S4096_S1x4096 := by
  show StableHlo.after hostOps1 (W1 m ρ c) (Proc.devRef .tc main_v1) = _
  after_results
  rw [W1_of_ne m ρ c main_arg2 (by decide)]
  rfl

/-- Entry (0, q) of the bias row is entry q of the bias vector. -/
theorem bias_row (b : S4096.Idx → EReal) (q : Fin 4096) :
    shapeCast S1x4096 b shapeCasts_S4096_S1x4096 (ix2 (0 : Fin 1) q) = b (ix1 q) := by
  rw [shapeCast_addUnit_apply]
  exact congrArg b (funext fun a => by match a with | ⟨0, _⟩ => rfl)

end Cert.KernelIdeal.Between

end
-- ==== Proof.KernelValue.lean ====
/-
  The kernel program's result is the layer of the specification.

  The second call leaves in the result array the row form of the specification over the three arrays it found
  (its 32 blocks tile the result). What it found is: the input matrix as launched; the weight matrix binarized
  by the first call; the bias vector laid out as one row by the host reshape. The row form over exactly these
  three is the layer, entry by entry.
-/
import proofs.«100262_j65566970741075_2_alg».proof.Proof.Layer
import proofs.«100262_j65566970741075_2_alg».proof.Proof.Between

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array after the run, as one function of the launch contents of the three arguments. -/
theorem value (c : Dev nD) :
    (dat1 (V2 m ρ) c).arrAt 3 cfg1.N
      = SignDense.layer (m ((c : Thread nD τ).loc main_arg0) : S8192x4096.Idx → EReal)
          (m ((c : Thread nD τ).loc main_arg1) : S4096x4096.Idx → EReal)
          (m ((c : Thread nD τ).loc main_arg2) : S4096.Idx → EReal) := by
  rw [Layer.final (V2 m ρ) c]
  unfold Layer.result
  rw [Between.entry_input, Between.entry_weights, Between.entry_bias]
  exact SignDense.rows_eq_layer _ _ _ _ (Between.bias_row _)

end Cert.KernelIdeal.KernelValue

end
-- ==== Proof.lean ====
/-
  The certificate of a sign-binarized dense layer: out = tanh (bin x · bin k + bias), where bin sends an entry
  strictly below zero to -1 and every other entry to +1.

  The kernel program binarizes the weight matrix once in a first call (8 blocks of 512 rows), lays the bias out as
  a row, and computes the layer 256 rows at a time in a second call on the matrix unit; the reference program is
  the same formula as whole-array operations. Read on the extended reals both results are, entry (p, q),

      tanh ( sum over j of bin (x (p, j)) * bin (k (j, q)) + bias q ),

  with the same sum in the same order on both sides (a matrix product into a zero accumulator and a host dot
  product are both that sum), the same three constants, and the same tanh. No algebraic law beyond that is needed,
  so the finiteness of the inputs is never used.

  The three frame statements: the two kernel programs' are the generated frame certificates; the reference's is
  its generated run with the result dropped. The idealization rewrote nothing, so its statement is trivial.
-/
import proofs.«100262_j65566970741075_2_alg».proof.Defs
import proofs.«100262_j65566970741075_2_alg».proof.Proof.Gen.Kernel
import proofs.«100262_j65566970741075_2_alg».proof.Proof.Gen.Kernel.Frame
import proofs.«100262_j65566970741075_2_alg».proof.Proof.Gen.KernelIdeal
import proofs.«100262_j65566970741075_2_alg».proof.Proof.Gen.KernelIdeal.Frame
import proofs.«100262_j65566970741075_2_alg».proof.Proof.Gen.ReferenceIdeal
import proofs.«100262_j65566970741075_2_alg».proof.Proof.Gen.ReferenceIdeal.Run
import proofs.«100262_j65566970741075_2_alg».proof.Proof.Gen.ReferenceIdeal.Read
import proofs.«100262_j65566970741075_2_alg».proof.Proof.Gen.Pre_finite_inputs
import proofs.«100262_j65566970741075_2_alg».proof.Proof.RefValue
import proofs.«100262_j65566970741075_2_alg».proof.Proof.KernelRun
import proofs.«100262_j65566970741075_2_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the three arguments both programs end with the layer of the specification in
    their result arrays. -/
theorem algebraic : Cert.algebraic_KernelIdeal_ReferenceIdeal := by
  intro m ρ m' ρ' _ hagree
  refine ⟨fun c => SignDense.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KernelValue.value m ρ c), (h c).2⟩)
      (Cert.KernelIdeal.Named.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
